-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S25165824 : Shape := ⟨1, ![25165824]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel
  bcast_S_S25165824 : S_.BroadcastsInDim S25165824 (![] : Fin 0 → Fin S25165824.rank)
  reducesTo_S25165824_S_d0 : S25165824.ReducesTo [0] S_

variable [Facts]

def fn {F : FTy → Type} [FloatOps F] (main_arg0 : FVec F S33554432 .f32) (main_arg1 : FVec F S25165824 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S25165824 .f32 := Host.absf main_arg1
  let main_cst_0 : FVec F S_ .f32 := constant S_ .f32 0x7F800000#32
  let main_v5 : FVec F S25165824 .f32 := broadcastInDim S25165824 ![] bcast_S_S25165824 main_cst_0
  let main_v6 : IVec S25165824 1 := cmpf .olt main_v4 main_v5
  let main_c_1 : IVec S_ 1 := constantI S_ 1 1#1
  let main_v7 : IVec S_ 1 := (fun x v => Host.reduce IntOp.andi x v reducesTo_S25165824_S_d0 h_S_) main_v6 main_c_1
  let main_v8 : IVec S_ 1 := andi main_v3 main_v7
  main_v8
-- ==== Kernel.lean ====
abbrev S33554432 : Shape := ⟨1, ![33554432]⟩
abbrev S25165824 : Shape := ⟨1, ![25165824]⟩
abbrev S262144x128 : Shape := ⟨2, ![262144, 128]⟩
abbrev S196608x128 : Shape := ⟨2, ![196608, 128]⟩
abbrev S2x8x128 : Shape := ⟨3, ![2, 8, 128]⟩
abbrev S16384x128 : Shape := ⟨2, ![16384, 128]⟩
abbrev S1x8x128 : Shape := ⟨3, ![1, 8, 128]⟩
abbrev S8x128 : Shape := ⟨2, ![8, 128]⟩
abbrev S2048x8x128 : Shape := ⟨3, ![2048, 8, 128]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S25165824, .f32⟩
  | .hbm, ⟨2, _⟩ => ⟨S262144x128, .f32⟩
  | .hbm, ⟨3, _⟩ => ⟨S196608x128, .f32⟩
  | .hbm, ⟨4, _⟩ => ⟨S2x8x128, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond4 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c11_i32 : BitVec 32 := 11#32
  let v2 : BitVec 32 := Scalar.minsi v1 c11_i32
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  shapeCasts_S25165824_S196608x128 : S25165824.ShapeCasts S196608x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S16384x128_S2048x8x128 : S16384x128.ShapeCasts S2048x8x128
  reduces_S2048x8x128_S8x128 : S2048x8x128.Reduces [0] S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S196608x128.size a
  hwx0_1 : ∀ i : grid0.Coords, EltTy.bits .f32 = 32 ∨ (Rect.block (s := S196608x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S25165824 : Shape := ⟨1, ![25165824]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S25165824, .f32⟩
  | .hbm, ⟨2, _⟩ => ⟨S_, .i32⟩
  | .hbm, ⟨3, _⟩ => ⟨S_, .f32⟩
  | .hbm, ⟨4, _⟩ => ⟨S33554432, .f32⟩
  | .hbm, ⟨5, _⟩ => ⟨S_, .i32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S_, .f32⟩
  | .hbm, ⟨12, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  pads_S33554432_S33554432_000 : S33554432.Pads (![0] : Fin 1 → Nat) ![0] ![0] S33554432
  h_S_ : 0 < S_.numel
  pads_S25165824_S33554432_083886080 : S25165824.Pads (![0] : Fin 1 → Nat) ![8388608] ![0] S33554432
  reducesTo_S33554432_S_d0 : S33554432.ReducesTo [0] S_

variable [Facts₀]

class Facts : Prop extends Facts₀ where

variable [Facts]
-- ==== Proof.CaseValues.lean ====
/-
  What each control case of the kernel body leaves behind, read as a value.

  The body keeps a running block `acc` of shape [8, 128] in a scratch buffer that survives from one grid point to
  the next. At a point it loads the point's block `x0` of the first operand (and, where the second operand still has
  rows, its block `x1`), and stores into the scratch one of

    fold ((x0 - x1)²) added to the zero block     (the first point of a core's run, where `acc` is reset first),
    fold ((x0 - x1)²) added to the old `acc`       (a later point inside the second operand's extent),
    fold (x0²)        added to the old `acc`       (a point beyond the second operand's extent),

  where `fold` sums the 2048 consecutive groups of 8 rows of a [16384, 128] block into one [8, 128] block. At the
  last point of a core's run the new `acc`, viewed as a [1, 8, 128] block, is also stored into the output block.
  Every store covers its whole buffer, and every load reads a whole buffer, so what a buffer holds after the body is
  exactly the last stored value, as a function of what the buffers held before.
-/
import proofs.«162700_j75668733821525_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Stores

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first point of a core's run: the zero block, then one folded block of squared differences -/

theorem acc_first (c : Dev nD) (i : grid0.Coords) (a2 : Memref sig .tc .vmem S16384x128 .f32) (h2 : a2.IsWhole)
    (a3 : Memref sig .tc .vmem S16384x128 .f32) (h3 : a3.IsWhole) (a4 : Memref sig .tc .vmem S1x8x128 .f32) (h4 : a4.IsWhole)
    (a5 : Memref sig .tc .vmem S8x128 .f32) (h5 : a5.IsWhole)
    (hc0 : cond0_0 i) (hc1 : cond0_1 i) (hc2 : ¬cond0_2 i) (hc3 : ¬cond0_3 i)
    (x0 x1 : Vec F S16384x128 .f32) :
    sout0_A_0 c i a2 h2 a3 h3 a4 h4 a5 h5 hc0 hc1 hc2 hc3 x0 x1 = k0_pay3 x0 x1 (k0_pay1 (F := F)) := by
  unfold sout0_A_0
  rw [View.read_writes_eq_canon _ _ _ (scover0_A_0 c i a2 h2 a3 h3 a4 h4 a5 h5 hc0 hc1 hc2 hc3 x0 x1)]
  unfold kernelRun0_A
  dsimp only
  sl_unfold_words
  rw [View.canon_cons_unit_zero (S := S8x128) hz2]
  simp only [View.readAt_eq_ld, h2.read_unread, h3.read_unread,
    View.ld_unit_zero (S := S16384x128) hz2, View.readCov_unit_zero (S := S8x128) _ hz2]

/-! ## A later point where the second operand still has rows -/

theorem acc_inside (c : Dev nD) (i : grid0.Coords) (a2 : Memref sig .tc .vmem S16384x128 .f32) (h2 : a2.IsWhole)
    (a3 : Memref sig .tc .vmem S16384x128 .f32) (h3 : a3.IsWhole) (a4 : Memref sig .tc .vmem S1x8x128 .f32) (h4 : a4.IsWhole)
    (a5 : Memref sig .tc .vmem S8x128 .f32) (h5 : a5.IsWhole)
    (hc0 : ¬cond0_0 i) (hc1 : cond0_1 i) (hc2 : ¬cond0_2 i) (hc3 : ¬cond0_3 i)
    (x0 x1 : Vec F S16384x128 .f32) (xs0 : Vec F S8x128 .f32) :
    sout0_B_0 c i a2 h2 a3 h3 a4 h4 a5 h5 hc0 hc1 hc2 hc3 x0 x1 xs0 = k0_pay3 x0 x1 xs0 := by
  unfold sout0_B_0
  rw [View.read_writes_eq_canon _ _ _ (scover0_B_0 c i a2 h2 a3 h3 a4 h4 a5 h5 hc0 hc1 hc2 hc3 x0 x1 xs0)]
  unfold kernelRun0_B
  dsimp only
  rw [View.canon_unit_zero hz2]
  simp only [View.readAt_eq_ld, h2.read_unread, h3.read_unread, h5.read_unread,
    View.ld_unit_zero (S := S16384x128) hz2, View.ld_unit_zero (S := S8x128) hz2]

/-! ## The last point of the first core's run: the same accumulation, and the output block -/

theorem acc_inside_last (c : Dev nD) (i : grid0.Coords) (a2 : Memref sig .tc .vmem S16384x128 .f32) (h2 : a2.IsWhole)
    (a3 : Memref sig .tc .vmem S16384x128 .f32) (h3 : a3.IsWhole) (a4 : Memref sig .tc .vmem S1x8x128 .f32) (h4 : a4.IsWhole)
    (a5 : Memref sig .tc .vmem S8x128 .f32) (h5 : a5.IsWhole)
    (hc0 : ¬cond0_0 i) (hc1 : cond0_1 i) (hc2 : ¬cond0_2 i) (hc3 : cond0_3 i)
    (x0 x1 : Vec F S16384x128 .f32) (xs0 : Vec F S8x128 .f32) :
    sout0_C_0 c i a2 h2 a3 h3 a4 h4 a5 h5 hc0 hc1 hc2 hc3 x0 x1 xs0 = k0_pay3 x0 x1 xs0 := by
  unfold sout0_C_0
  rw [View.read_writes_eq_canon _ _ _ (scover0_C_0 c i a2 h2 a3 h3 a4 h4 a5 h5 hc0 hc1 hc2 hc3 x0 x1 xs0)]
  unfold kernelRun0_C
  dsimp only
  sl_unfold_words
  rw [View.canon_unit_zero hz2]
  simp only [View.readAt_eq_ld, h2.read_unread, h3.read_unread, h5.read_unread,
    View.ld_unit_zero (S := S16384x128) hz2, View.ld_unit_zero (S := S8x128) hz2]

theorem out_inside_last (c : Dev nD) (i : grid0.Coords) (a2 : Memref sig .tc .vmem S16384x128 .f32) (h2 : a2.IsWhole)
    (a3 : Memref sig .tc .vmem S16384x128 .f32) (h3 : a3.IsWhole) (a4 : Memref sig .tc .vmem S1x8x128 .f32) (h4 : a4.IsWhole)
    (a5 : Memref sig .tc .vmem S8x128 .f32) (h5 : a5.IsWhole)
    (hc0 : ¬cond0_0 i) (hc1 : cond0_1 i) (hc2 : ¬cond0_2 i) (hc3 : cond0_3 i)
    (x0 x1 : Vec F S16384x128 .f32) (xs0 : Vec F S8x128 .f32) :
    out0_C_2 c i a2 h2 a3 h3 a4 h4 a5 h5 hc0 hc1 hc2 hc3 x0 x1 xs0 = k0_pay5 (k0_pay3 x0 x1 xs0) := by
  unfold out0_C_2
  rw [View.read_writes_eq_canon _ _ _ (cover0_C_2 c i a2 h2 a3 h3 a4 h4 a5 h5 hc0 hc1 hc2 hc3 x0 x1 xs0)]
  unfold kernelRun0_C
  dsimp only
  sl_unfold_words
  rw [View.canon_unit_zero hz3]
  simp only [View.readCov_unit_zero (S := S8x128) _ hz2, View.readAt_eq_ld, h2.read_unread, h3.read_unread, h5.read_unread,
    View.ld_unit_zero (S := S16384x128) hz2, View.ld_unit_zero (S := S8x128) hz2]

/-! ## A point beyond the second operand's extent -/

theorem acc_beyond (c : Dev nD) (i : grid0.Coords) (a2 : Memref sig .tc .vmem S16384x128 .f32) (h2 : a2.IsWhole)
    (a3 : Memref sig .tc .vmem S16384x128 .f32) (h3 : a3.IsWhole) (a4 : Memref sig .tc .vmem S1x8x128 .f32) (h4 : a4.IsWhole)
    (a5 : Memref sig .tc .vmem S8x128 .f32) (h5 : a5.IsWhole)
    (hc0 : ¬cond0_0 i) (hc1 : ¬cond0_1 i) (hc2 : cond0_2 i) (hc3 : ¬cond0_3 i)
    (x0 x1 : Vec F S16384x128 .f32) (xs0 : Vec F S8x128 .f32) :
    sout0_D_0 c i a2 h2 a3 h3 a4 h4 a5 h5 hc0 hc1 hc2 hc3 x0 x1 xs0 = k0_pay4 x0 xs0 := by
  unfold sout0_D_0
  rw [View.read_writes_eq_canon _ _ _ (scover0_D_0 c i a2 h2 a3 h3 a4 h4 a5 h5 hc0 hc1 hc2 hc3 x0 x1 xs0)]
  unfold kernelRun0_D
  dsimp only
  rw [View.canon_unit_zero hz2]
  simp only [View.readAt_eq_ld, h2.read_unread, h3.read_unread, h5.read_unread,
    View.ld_unit_zero (S := S16384x128) hz2, View.ld_unit_zero (S := S8x128) hz2]

/-! ## The last point of the second core's run -/

theorem acc_beyond_last (c : Dev nD) (i : grid0.Coords) (a2 : Memref sig .tc .vmem S16384x128 .f32) (h2 : a2.IsWhole)
    (a3 : Memref sig .tc .vmem S16384x128 .f32) (h3 : a3.IsWhole) (a4 : Memref sig .tc .vmem S1x8x128 .f32) (h4 : a4.IsWhole)
    (a5 : Memref sig .tc .vmem S8x128 .f32) (h5 : a5.IsWhole)
    (hc0 : ¬cond0_0 i) (hc1 : ¬cond0_1 i) (hc2 : cond0_2 i) (hc3 : cond0_3 i)
    (x0 x1 : Vec F S16384x128 .f32) (xs0 : Vec F S8x128 .f32) :
    sout0_E_0 c i a2 h2 a3 h3 a4 h4 a5 h5 hc0 hc1 hc2 hc3 x0 x1 xs0 = k0_pay4 x0 xs0 := by
  unfold sout0_E_0
  rw [View.read_writes_eq_canon _ _ _ (scover0_E_0 c i a2 h2 a3 h3 a4 h4 a5 h5 hc0 hc1 hc2 hc3 x0 x1 xs0)]
  unfold kernelRun0_E
  dsimp only
  sl_unfold_words
  rw [View.canon_unit_zero hz2]
  simp only [View.readAt_eq_ld, h2.read_unread, h3.read_unread, h5.read_unread,
    View.ld_unit_zero (S := S16384x128) hz2, View.ld_unit_zero (S := S8x128) hz2]

theorem out_beyond_last (c : Dev nD) (i : grid0.Coords) (a2 : Memref sig .tc .vmem S16384x128 .f32) (h2 : a2.IsWhole)
    (a3 : Memref sig .tc .vmem S16384x128 .f32) (h3 : a3.IsWhole) (a4 : Memref sig .tc .vmem S1x8x128 .f32) (h4 : a4.IsWhole)
    (a5 : Memref sig .tc .vmem S8x128 .f32) (h5 : a5.IsWhole)
    (hc0 : ¬cond0_0 i) (hc1 : ¬cond0_1 i) (hc2 : cond0_2 i) (hc3 : cond0_3 i)
    (x0 x1 : Vec F S16384x128 .f32) (xs0 : Vec F S8x128 .f32) :
    out0_E_2 c i a2 h2 a3 h3 a4 h4 a5 h5 hc0 hc1 hc2 hc3 x0 x1 xs0 = k0_pay5 (k0_pay4 x0 xs0) := by
  unfold out0_E_2
  rw [View.read_writes_eq_canon _ _ _ (cover0_E_2 c i a2 h2 a3 h3 a4 h4 a5 h5 hc0 hc1 hc2 hc3 x0 x1 xs0)]
  unfold kernelRun0_E
  dsimp only
  sl_unfold_words
  rw [View.canon_unit_zero hz3]
  simp only [View.readCov_unit_zero (S := S8x128) _ hz2, View.readAt_eq_ld, h2.read_unread, h3.read_unread, h5.read_unread,
    View.ld_unit_zero (S := S16384x128) hz2, View.ld_unit_zero (S := S8x128) hz2]

end Cert.KernelIdeal.Stores

end
-- ==== Proof.BlockFold.lean ====
/-
  The kernel body's arithmetic, read at one entry, on the extended reals.

  A point's block has 16384 rows of 128 lanes. The body views it as 2048 groups of 8 rows and sums the groups: entry
  (r, l) of the folded [8, 128] block is the sum over k < 2048 of entry (8 k + r, l) of the block. What is folded is
  the square of the difference of the two operands' blocks (or the square of the first operand's block alone), and
  the folded block is added, entry by entry, to the running block. The reset block is zero at every entry, and
  viewing an [8, 128] block as [1, 8, 128] moves no entry.
-/
import proofs.«162700_j75668733821525_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Fold

open Cert.KernelIdeal Cert.KernelIdeal.Gen

/-- Row r of group k of a block: row 8 k + r. -/
abbrev grow (k : Fin 2048) (r : Fin 8) : Fin 16384 := ⟨8 * k.val + r.val, by have := k.isLt; have := r.isLt; omega⟩

/-- The block viewed as 2048 groups of 8 rows: entry (k, r, l) of the view is entry (8 k + r, l) of the block
    (the same row-major position). -/
theorem groups_apply {α : Type} (v : S16384x128.Idx → α) (k : Fin 2048) (r : Fin 8) (l : Fin 128) :
    shapeCast S2048x8x128 v shapeCasts_S16384x128_S2048x8x128 (ix3 k r l) = v (ix2 (grow k r) l) :=
  shapeCast_apply v shapeCasts_S16384x128_S2048x8x128 _ _ (by
    rw [Shape.rowMajor_val_two, Shape.rowMajor_val_three]
    show (8 * k.val + r.val) * 128 + l.val = (k.val * 8 + r.val) * 128 + l.val
    omega)

/-- The sum over the groups: entry (r, l) of the folded block is the sum over k of entry (k, r, l). -/
theorem fold_apply (src : FVec Ideal S2048x8x128 .f32) (hφ : FKind.Formats .f32)
    (hacc : (0x00000000#32 : BitVec (FTy.f32).bits) = FKind.add.neutral .f32 hφ) (r : Fin 8) (l : Fin 128) :
    multiReduction .add [0] S8x128 src 0x00000000#32 reduces_S2048x8x128_S8x128 hφ hacc (ix2 r l)
      = ∑ k : Fin 2048, src (ix3 k r l) :=
  (Ideal.multiReduction_add_single src _ reduces_S2048x8x128_S8x128 hφ hacc (ix2 r l)).trans
    (Finset.sum_congr rfl fun k _ => congrArg src (funext fun a =>
      match a with | ⟨0, _⟩ => rfl | ⟨1, _⟩ => rfl | ⟨2, _⟩ => rfl))

/-- The reset block is zero at every entry. -/
theorem reset_apply (j : S8x128.Idx) : k0_pay1 (F := Ideal) j = 0 := by
  unfold k0_pay1
  simp only [shapeCast_self]
  exact Ideal.ofBits_zero_f32

/-- Inside the second operand's extent: the running block plus the folded squared difference. -/
theorem sqdiff_fold_apply (x0 x1 : Vec Ideal S16384x128 .f32) (a : Vec Ideal S8x128 .f32) (r : Fin 8) (l : Fin 128) :
    k0_pay3 (F := Ideal) x0 x1 a (ix2 r l)
      = a (ix2 r l) + ∑ k : Fin 2048, (x0 (ix2 (grow k r) l) - x1 (ix2 (grow k r) l)) * (x0 (ix2 (grow k r) l) - x1 (ix2 (grow k r) l)) := by
  unfold k0_pay3 k0_pay2
  simp only [shapeCast_self]
  refine congrArg (a (ix2 r l) + ·) ?_
  refine (fold_apply _ _ _ r l).trans ?_
  refine Finset.sum_congr rfl fun k _ => ?_
  exact groups_apply _ k r l

/-- Beyond the second operand's extent: the running block plus the folded square of the first operand's block. -/
theorem sq_fold_apply (x0 : Vec Ideal S16384x128 .f32) (a : Vec Ideal S8x128 .f32) (r : Fin 8) (l : Fin 128) :
    k0_pay4 (F := Ideal) x0 a (ix2 r l)
      = a (ix2 r l) + ∑ k : Fin 2048, x0 (ix2 (grow k r) l) * x0 (ix2 (grow k r) l) := by
  unfold k0_pay4 k0_pay2
  simp only [shapeCast_self]
  refine congrArg (a (ix2 r l) + ·) ?_
  refine (fold_apply _ _ _ r l).trans ?_
  refine Finset.sum_congr rfl fun k _ => ?_
  exact groups_apply _ k r l

/-- The output block is the running block with a leading axis of extent one. -/
theorem out_apply {F : FTy → Type} [FloatOps F] (a : Vec F S8x128 .f32) (u : Fin 1) (r : Fin 8) (l : Fin 128) :
    k0_pay5 a (ix3 u r l) = a (ix2 r l) := by
  unfold k0_pay5
  exact shapeCast_ab_1ab_apply a shapeCasts_S8x128_S1x8x128 u r l

end Cert.KernelIdeal.Fold

end
-- ==== Proof.LibMomentsSums.lean ====
/-
  GENERAL lemmas on finite sums over an additive commutative monoid (so they hold on the extended reals with no
  finiteness hypothesis).

  * A sum over K * b indices is the sum over K consecutive blocks of width b (the index b * k + i of block k,
    place i, runs through every index exactly once).
  * The padded blocked sum: 80 rows, of which only the rows 8 t (t = 0 … 9) are nonzero and row 8 t holds the
    sum of block t of a family of 50000 terms cut into 10 blocks of width 5000; the sum of the 80 rows is the
    sum of the 50000 terms.
  * A sum over 384 indices is the sum of three sums over 128 indices (k, 128 + k, 256 + k).
-/
import Mathlib.Algebra.BigOperators.Fin
import Mathlib.Algebra.BigOperators.Group.Finset.Basic
import Mathlib.Logic.Equiv.Fin.Basic
import Mathlib.Tactic.Ring

namespace Cert.LibMoments

open scoped BigOperators

variable {M : Type*} [AddCommMonoid M]

/-! ## Blocks -/

/-- Place i of block k is an index of the whole. -/
theorem idx_lt {K b : ℕ} (k : Fin K) (i : Fin b) : i.val + b * k.val < K * b := by
  have hk : k.val + 1 ≤ K := k.isLt
  calc i.val + b * k.val < b + b * k.val := Nat.add_lt_add_right i.isLt _
    _ = b * (k.val + 1) := by ring
    _ ≤ b * K := Nat.mul_le_mul_left _ hk
    _ = K * b := Nat.mul_comm _ _

/-- A sum over K * b indices, block by block: (k, i) ↦ i + b * k is a bijection of pairs with indices. -/
theorem sum_fin_mul (K b : ℕ) (f : Fin (K * b) → M) :
    ∑ j : Fin (K * b), f j = ∑ k : Fin K, ∑ i : Fin b, f ⟨i.val + b * k.val, idx_lt k i⟩ := by
  rw [← (finProdFinEquiv (m := K) (n := b)).sum_comp f, Fintype.sum_prod_type]
  rfl

/-! ## The padded blocked sum -/

/-- Place q of the block that row r names (block r / 8) is one of the 50000 indices. -/
theorem pad_lt (r : Fin 80) (q : Fin 5000) : 5000 * (r.val / 8) + q.val < 50000 := by
  have := r.isLt; have := q.isLt; omega

/-- The padded blocked sum, with the rows' entries given as a function G r q and the index relation as a
    hypothesis on values (only asked at the rows that count, r % 8 = 0): any spelling of the index applies. -/
theorem padded_sum_of (g : Fin 50000 → M) (G : Fin 80 → Fin 5000 → M)
    (hG : ∀ (r : Fin 80) (q : Fin 5000) (p : Fin 50000), r.val % 8 = 0 → p.val = 5000 * (r.val / 8) + q.val →
      G r q = g p) :
    ∑ r : Fin 80, (if r.val % 8 = 0 then ∑ q : Fin 5000, G r q else 0) = ∑ p : Fin 50000, g p := by
  have e1 := sum_fin_mul (M := M) 10 8 (fun r : Fin 80 => if r.val % 8 = 0 then ∑ q : Fin 5000, G r q else 0)
  have e2 := sum_fin_mul (M := M) 10 5000 g
  refine (e1.trans ?_).trans e2.symm
  refine Fintype.sum_congr _ _ fun t => ?_
  have h0 : ∀ i : Fin 8, i ≠ 0 → ¬ ((i.val + 8 * t.val) % 8 = 0) := by
    intro i hi h
    apply hi
    apply Fin.ext
    have := i.isLt
    show i.val = 0
    omega
  rw [Finset.sum_eq_single (0 : Fin 8) (fun i _ hi => if_neg (h0 i hi)) (fun h => absurd (Finset.mem_univ _) h)]
  have hz : ((0 : Fin 8).val + 8 * t.val) % 8 = 0 := by
    show (0 + 8 * t.val) % 8 = 0
    omega
  rw [if_pos hz]
  refine Fintype.sum_congr _ _ fun q => hG _ q _ hz ?_
  show q.val + 5000 * t.val = 5000 * ((0 + 8 * t.val) / 8) + q.val
  omega

/-- The padded blocked sum in its literal form. -/
theorem padded_sum (g : Fin 50000 → M) :
    ∑ r : Fin 80, (if r.val % 8 = 0 then ∑ q : Fin 5000, g ⟨5000 * (r.val / 8) + q.val, pad_lt r q⟩ else 0)
      = ∑ p : Fin 50000, g p :=
  padded_sum_of g _ fun _ _ _ _ hp => congrArg g (Fin.ext hp.symm)

/-- The same with any family of proofs of the bound. -/
theorem padded_sum' (g : Fin 50000 → M) (h : ∀ (r : Fin 80) (q : Fin 5000), 5000 * (r.val / 8) + q.val < 50000) :
    ∑ r : Fin 80, (if r.val % 8 = 0 then ∑ q : Fin 5000, g ⟨5000 * (r.val / 8) + q.val, h r q⟩ else 0)
      = ∑ p : Fin 50000, g p :=
  padded_sum g

/-! ## Three blocks of width 128 -/

/-- A sum over 384 indices as three sums over 128, the three families given as functions and the index relations
    as hypotheses on values. -/
theorem sum_384_of (f : Fin 384 → M) (a b c : Fin 128 → M)
    (ha : ∀ (k : Fin 128) (j : Fin 384), j.val = k.val → a k = f j)
    (hb : ∀ (k : Fin 128) (j : Fin 384), j.val = 128 + k.val → b k = f j)
    (hc : ∀ (k : Fin 128) (j : Fin 384), j.val = 256 + k.val → c k = f j) :
    ∑ j : Fin 384, f j = (∑ k : Fin 128, a k) + (∑ k : Fin 128, b k) + ∑ k : Fin 128, c k := by
  have e := sum_fin_mul (M := M) 3 128 f
  refine e.trans ?_
  rw [Fin.sum_univ_three]
  refine congrArg₂ (· + ·) (congrArg₂ (· + ·) ?_ ?_) ?_
  · refine Fintype.sum_congr _ _ fun k => (ha k _ ?_).symm
    show k.val + 128 * 0 = k.val
    omega
  · refine Fintype.sum_congr _ _ fun k => (hb k _ ?_).symm
    show k.val + 128 * 1 = 128 + k.val
    omega
  · refine Fintype.sum_congr _ _ fun k => (hc k _ ?_).symm
    show k.val + 128 * 2 = 256 + k.val
    omega

theorem lt_384_0 (k : Fin 128) : k.val < 384 := by have := k.isLt; omega
theorem lt_384_1 (k : Fin 128) : 128 + k.val < 384 := by have := k.isLt; omega
theorem lt_384_2 (k : Fin 128) : 256 + k.val < 384 := by have := k.isLt; omega

/-- The literal form. -/
theorem sum_384 (f : Fin 384 → M) :
    ∑ j : Fin 384, f j = (∑ k : Fin 128, f ⟨k.val, lt_384_0 k⟩) + (∑ k : Fin 128, f ⟨128 + k.val, lt_384_1 k⟩)
      + ∑ k : Fin 128, f ⟨256 + k.val, lt_384_2 k⟩ :=
  sum_384_of f _ _ _ (fun _ _ h => congrArg f (Fin.ext h.symm)) (fun _ _ h => congrArg f (Fin.ext h.symm))
    (fun _ _ h => congrArg f (Fin.ext h.symm))

end Cert.LibMoments
-- ==== Proof.SquaredDistance.lean ====
/-
  The squared distance between two vectors, and the law that regroups its sum the way the kernel computes it.

  t has 33554432 = 16 · 2048 · 8 · 128 entries and c has 25165824 = 12 · 2048 · 8 · 128; c is continued by zeros to
  t's length. The quantity is the sum over all positions j of (t j − c j)². Where c is continued by zero the term
  is (t j − 0)², which is t j · t j on the extended reals too (subtracting zero changes nothing, at ±∞ either).

  A position is written in mixed radix as j = ((n · 2048 + k) · 8 + r) · 128 + l with n < 16 (the block), k < 2048
  (the group of 8 rows inside the block), r < 8 (the row inside the group) and l < 128 (the lane). The kernel sums
  over k first (a block folded to 8 × 128 partial sums), then over the 8 blocks n = 8 p + i of one half p, and the
  host sums the 2 · 8 · 128 partial sums that remain. Only commutativity and associativity of addition are used,
  so the law holds in any additive commutative monoid, and on the extended reals with no finiteness hypothesis.
-/
import Mathlib.Data.EReal.Basic
import Mathlib.Data.EReal.Operations
import Mathlib.Algebra.BigOperators.Intervals
import Mathlib.Tactic.Ring
import proofs.«162700_j75668733821525_2_alg».proof.Proof.LibMomentsSums

noncomputable section

open scoped BigOperators

namespace Cert.Distance

variable {M : Type*} [AddCommMonoid M]

/-! ## Sums over mixed-radix positions -/

/-- A sum over the first m · n naturals, leading digit first: j = a · n + b. -/
theorem sum_range_mul (m n : ℕ) (u : ℕ → M) :
    ∑ j ∈ Finset.range (m * n), u j = ∑ a ∈ Finset.range m, ∑ b ∈ Finset.range n, u (a * n + b) := by
  refine (Finset.sum_range _).trans ?_
  refine (Cert.LibMoments.sum_fin_mul m n (fun j => u j.val)).trans ?_
  refine ((Finset.sum_range (fun a => ∑ b ∈ Finset.range n, u (a * n + b))).trans ?_).symm
  refine Finset.sum_congr rfl fun a _ => ?_
  refine (Finset.sum_range (fun b => u (a.val * n + b))).trans ?_
  refine Finset.sum_congr rfl fun b _ => ?_
  show u (a.val * n + b.val) = u (b.val + n * a.val)
  rw [Nat.mul_comm, Nat.add_comm]

/-- Four nested sums with the two outer and the two inner ranges exchanged. -/
theorem sum_swap_pairs (A B C D : Finset ℕ) (f : ℕ → ℕ → ℕ → ℕ → M) :
    ∑ i ∈ A, ∑ k ∈ B, ∑ r ∈ C, ∑ l ∈ D, f i k r l = ∑ r ∈ C, ∑ l ∈ D, ∑ i ∈ A, ∑ k ∈ B, f i k r l :=
  calc ∑ i ∈ A, ∑ k ∈ B, ∑ r ∈ C, ∑ l ∈ D, f i k r l
      = ∑ i ∈ A, ∑ r ∈ C, ∑ k ∈ B, ∑ l ∈ D, f i k r l := Finset.sum_congr rfl fun _ _ => Finset.sum_comm
    _ = ∑ r ∈ C, ∑ i ∈ A, ∑ k ∈ B, ∑ l ∈ D, f i k r l := Finset.sum_comm
    _ = ∑ r ∈ C, ∑ i ∈ A, ∑ l ∈ D, ∑ k ∈ B, f i k r l :=
        Finset.sum_congr rfl fun _ _ => Finset.sum_congr rfl fun _ _ => Finset.sum_comm
    _ = ∑ r ∈ C, ∑ l ∈ D, ∑ i ∈ A, ∑ k ∈ B, f i k r l := Finset.sum_congr rfl fun _ _ => Finset.sum_comm

/-- The sum over all positions, digit by digit, in the order halves, rows, lanes, blocks of a half, groups. -/
theorem sum_digits (P I K R L : ℕ) (u : ℕ → M) :
    ∑ j ∈ Finset.range (P * I * K * R * L), u j
      = ∑ p ∈ Finset.range P, ∑ r ∈ Finset.range R, ∑ l ∈ Finset.range L, ∑ i ∈ Finset.range I,
          ∑ k ∈ Finset.range K, u ((((p * I + i) * K + k) * R + r) * L + l) := by
  rw [sum_range_mul (P * I * K * R) L, sum_range_mul (P * I * K) R, sum_range_mul (P * I) K, sum_range_mul P I]
  refine Finset.sum_congr rfl fun p _ => ?_
  exact sum_swap_pairs _ _ _ _ fun i k r l => u ((((p * I + i) * K + k) * R + r) * L + l)

/-! ## The running sum inside a run of eight blocks -/

/-- The sum of the terms of the run of eight that n lies in, up to and including n. -/
def runSum (T : ℕ → M) (n : ℕ) : M := ∑ i ∈ Finset.range (n % 8 + 1), T (8 * (n / 8) + i)

/-- At the first block of a run it is that block's term. -/
theorem runSum_first (T : ℕ → M) (n : ℕ) (h : n % 8 = 0) : runSum T n = T n := by
  unfold runSum
  rw [h, Finset.sum_range_one]
  congr 1
  omega

/-- At a later block of a run it is the running sum before, plus the block's term. -/
theorem runSum_step (T : ℕ → M) (n : ℕ) (h : ¬ n % 8 = 0) : runSum T n = runSum T (n - 1) + T n := by
  unfold runSum
  have h1 : (n - 1) / 8 = n / 8 := by omega
  have h2 : (n - 1) % 8 + 1 = n % 8 := by omega
  rw [h1, h2, Finset.sum_range_succ]
  congr 2
  omega

/-- At the last block of run p it is the sum of the run's eight terms. -/
theorem runSum_last (T : ℕ → M) (p : ℕ) : runSum T (8 * p + 7) = ∑ i ∈ Finset.range 8, T (8 * p + i) := by
  unfold runSum
  have h1 : (8 * p + 7) / 8 = p := by omega
  have h2 : (8 * p + 7) % 8 + 1 = 8 := by omega
  rw [h1, h2]

/-! ## The squared distance -/

/-- A vector of n entries continued by zeros. -/
def ext0 {n : ℕ} (x : Fin n → EReal) (j : ℕ) : EReal := if h : j < n then x ⟨j, h⟩ else 0

theorem ext0_of_lt {n : ℕ} (x : Fin n → EReal) (j : ℕ) (h : j < n) : ext0 x j = x ⟨j, h⟩ := dif_pos h

theorem ext0_of_le {n : ℕ} (x : Fin n → EReal) (j : ℕ) (h : n ≤ j) : ext0 x j = 0 := dif_neg (Nat.not_lt.mpr h)

/-- The term at position j: the squared difference there. -/
def term (t : Fin 33554432 → EReal) (c : Fin 25165824 → EReal) (j : ℕ) : EReal :=
  (ext0 t j - ext0 c j) * (ext0 t j - ext0 c j)

/-- Past c's length the term is the square of t's entry. -/
theorem term_of_le (t : Fin 33554432 → EReal) (c : Fin 25165824 → EReal) (j : ℕ) (h : 25165824 ≤ j) :
    term t c j = ext0 t j * ext0 t j := by
  unfold term
  rw [ext0_of_le c j h, sub_zero]

/-- The squared distance: the sum of the terms over every position of t. -/
def total (t : Fin 33554432 → EReal) (c : Fin 25165824 → EReal) : EReal :=
  ∑ j ∈ Finset.range 33554432, term t c j

/-- The position of lane l of row r of group k of block n. -/
def pos (n k r l : ℕ) : ℕ := ((n * 2048 + k) * 8 + r) * 128 + l

/-- A block folded at (r, l): the sum of its terms over the 2048 groups. -/
def blockSum (t : Fin 33554432 → EReal) (c : Fin 25165824 → EReal) (n r l : ℕ) : EReal :=
  ∑ k ∈ Finset.range 2048, term t c (pos n k r l)

/-- The partial sums the kernel leaves — at (p, r, l) the eight folded blocks of half p added up — sum to the
    squared distance. -/
theorem total_eq (t : Fin 33554432 → EReal) (c : Fin 25165824 → EReal) :
    ∑ p ∈ Finset.range 2, ∑ r ∈ Finset.range 8, ∑ l ∈ Finset.range 128,
        runSum (fun n => blockSum t c n r l) (8 * p + 7) = total t c := by
  unfold total
  rw [show (33554432 : ℕ) = 2 * 8 * 2048 * 8 * 128 from by norm_num, sum_digits 2 8 2048 8 128 (term t c)]
  refine Finset.sum_congr rfl fun p _ => Finset.sum_congr rfl fun r _ => Finset.sum_congr rfl fun l _ => ?_
  rw [runSum_last]
  refine Finset.sum_congr rfl fun i _ => ?_
  unfold blockSum pos
  refine Finset.sum_congr rfl fun k _ => ?_
  rw [Nat.mul_comm 8 p]

end Cert.Distance

end
-- ==== Proof.Accumulation.lean ====
/-
  What the running block holds after each grid point, in terms of the two argument vectors.

  The grid has 16 points; point n stages block n of the first operand (rows 16384 n … 16384 n + 16383 of its
  [262144, 128] view, that is positions pos n k r l of the flat vector) and, while n < 12, block n of the second
  operand. The points 0 … 7 form the first core's run and 8 … 15 the second's; the running block is reset at the
  first point of each run. So after point n the running block holds, at (r, l), the sum over the blocks n' of n's
  run up to n of the block's folded terms — the running sum of the law's statement — by induction on the point.
  At the last point of a run the output block holds the same entries.
-/
import proofs.«162700_j75668733821525_2_alg».proof.Proof.CaseValues
import proofs.«162700_j75668733821525_2_alg».proof.Proof.BlockFold
import proofs.«162700_j75668733821525_2_alg».proof.Proof.SquaredDistance
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Distance Cert.KernelIdeal.Fold

variable (m : (ℓ : Loc nD τ sig) → Buf (Elt Ideal) ℓ)

/-- The first argument's entries by position. -/
def tArr (c : Dev nD) : Fin 33554432 → EReal := fun a => m ((c : Thread nD τ).loc main_arg0) (ix1 a)

/-- The second argument's entries by position. -/
def cArr (c : Dev nD) : Fin 25165824 → EReal := fun a => m ((c : Thread nD τ).loc main_arg1) (ix1 a)

/-- The first operand's block at a point, as a [16384, 128] array of extended reals. -/
abbrev blk0 (c : Dev nD) (t : Fin cfg0.N) : Vec Ideal S16384x128 .f32 := iblk m c 0 t

/-- The second operand's block at a point. -/
abbrev blk1 (c : Dev nD) (t : Fin cfg0.N) : Vec Ideal S16384x128 .f32 := iblk m c 1 t

/-! ## The arrays the region finds: the arguments viewed with 128 lanes per row -/

theorem V_main_v0 (c : Dev nD) :
    (V m c main_v0 : S262144x128.Idx → EReal)
      = shapeCast S262144x128 (m ((c : Thread nD τ).loc main_arg0)) shapeCasts_S33554432_S262144x128 := by
  show StableHlo.after hostOps0 (fun b => m (c, b)) (Proc.devRef .tc main_v0) = _
  after_results
  rfl

theorem V_main_v1 (c : Dev nD) :
    (V m c main_v1 : S196608x128.Idx → EReal)
      = shapeCast S196608x128 (m ((c : Thread nD τ).loc main_arg1)) shapeCasts_S25165824_S196608x128 := by
  show StableHlo.after hostOps0 (fun b => m (c, b)) (Proc.devRef .tc main_v1) = _
  after_results
  rfl

/-! ## Where the windows' blocks lie -/

/-- Point n stages block n of the first operand; -/
theorem index0 : ∀ t : Fin cfg0.N, win0_0.index t 0 = t.val ∧ win0_0.index t 1 = 0 :=
  (by decide +kernel : ∀ t : Fin grid0.N, win0_0.index t 0 = t.val ∧ win0_0.index t 1 = 0)

/-- and, of the second, block n while it has one (its last block afterwards, which the body does not read). -/
theorem index1 : ∀ t : Fin cfg0.N, t.val < 12 → win0_1.index t 0 = t.val ∧ win0_1.index t 1 = 0 :=
  (by decide +kernel : ∀ t : Fin grid0.N, t.val < 12 → win0_1.index t 0 = t.val ∧ win0_1.index t 1 = 0)

theorem pos_lt (n k r l : ℕ) (hn : n < 16) (hk : k < 2048) (hr : r < 8) (hl : l < 128) : pos n k r l < 33554432 := by
  unfold pos; omega

theorem pos_lt_c (n k r l : ℕ) (hn : n < 12) (hk : k < 2048) (hr : r < 8) (hl : l < 128) : pos n k r l < 25165824 := by
  unfold pos; omega

theorem le_pos (n k r l : ℕ) (hn : 12 ≤ n) : 25165824 ≤ pos n k r l := by
  unfold pos; omega

/-- Entry (8 k + r, l) of the first operand's block at point n is the first argument at position pos n k r l. -/
theorem blk0_apply (c : Dev nD) (t : Fin cfg0.N) (k : Fin 2048) (r : Fin 8) (l : Fin 128) :
    blk0 m c t (ix2 (grow k r) l) = ext0 (tArr m c) (pos t.val k.val r.val l.val) := by
  have hN : t.val < 16 := lt_of_lt_of_eq t.isLt (show cfg0.N = 16 from N_0)
  have hp := pos_lt t.val k.val r.val l.val hN k.isLt r.isLt l.isLt
  rw [ext0_of_lt _ _ hp]
  unfold blk0 iblk
  rw [View.read_apply]
  show V m c main_v0 _ = _
  rw [V_main_v0]
  refine shapeCast_apply _ _ _ (ix1 ⟨pos t.val k.val r.val l.val, hp⟩) ?_
  rw [Shape.rowMajor_val_one, Shape.rowMajor_val_two]
  show pos t.val k.val r.val l.val
    = (win0_0.index t 0 * 16384 + 1 * (8 * k.val + r.val)) * 128 + (win0_0.index t 1 * 128 + 1 * l.val)
  rw [(index0 t).1, (index0 t).2]
  unfold pos
  omega

/-- The same for the second operand, while it has a block at the point. -/
theorem blk1_apply (c : Dev nD) (t : Fin cfg0.N) (ht : t.val < 12) (k : Fin 2048) (r : Fin 8) (l : Fin 128) :
    blk1 m c t (ix2 (grow k r) l) = ext0 (cArr m c) (pos t.val k.val r.val l.val) := by
  have hp := pos_lt_c t.val k.val r.val l.val ht k.isLt r.isLt l.isLt
  rw [ext0_of_lt _ _ hp]
  unfold blk1 iblk
  rw [View.read_apply]
  show V m c main_v1 _ = _
  rw [V_main_v1]
  refine shapeCast_apply _ _ _ (ix1 ⟨pos t.val k.val r.val l.val, hp⟩) ?_
  rw [Shape.rowMajor_val_one, Shape.rowMajor_val_two]
  show pos t.val k.val r.val l.val
    = (win0_1.index t 0 * 16384 + 1 * (8 * k.val + r.val)) * 128 + (win0_1.index t 1 * 128 + 1 * l.val)
  rw [(index1 t ht).1, (index1 t ht).2]
  unfold pos
  omega

/-! ## A block folded -/

/-- Inside the second operand's extent the folded squared difference of the blocks at point n is block n's folded
    terms. -/
theorem sqdiff_block (c : Dev nD) (t : Fin cfg0.N) (ht : t.val < 12) (r : Fin 8) (l : Fin 128) :
    ∑ k : Fin 2048, (blk0 m c t (ix2 (grow k r) l) - blk1 m c t (ix2 (grow k r) l))
        * (blk0 m c t (ix2 (grow k r) l) - blk1 m c t (ix2 (grow k r) l))
      = blockSum (tArr m c) (cArr m c) t.val r.val l.val := by
  unfold blockSum
  rw [Finset.sum_range]
  refine Finset.sum_congr rfl fun k _ => ?_
  rw [blk0_apply m c t k r l, blk1_apply m c t ht k r l]
  rfl

/-- Beyond it the folded square of the first operand's block is block n's folded terms. -/
theorem sq_block (c : Dev nD) (t : Fin cfg0.N) (ht : 12 ≤ t.val) (r : Fin 8) (l : Fin 128) :
    ∑ k : Fin 2048, blk0 m c t (ix2 (grow k r) l) * blk0 m c t (ix2 (grow k r) l)
      = blockSum (tArr m c) (cArr m c) t.val r.val l.val := by
  unfold blockSum
  rw [Finset.sum_range]
  refine Finset.sum_congr rfl fun k _ => ?_
  rw [blk0_apply m c t k r l, term_of_le _ _ _ (le_pos t.val k.val r.val l.val ht)]

/-! ## The running block after each point -/

/-- One point: if the running block before the point holds the running sum (asked only where the point is not the
    first of its run), the running block after it does. -/
theorem acc_step (c : Dev nD) (t : Fin cfg0.N) (r : Fin 8) (l : Fin 128)
    (ih : ¬ t.val % 8 = 0 → (outsAt0 m c (t.val - 1) (Nat.lt_of_le_of_lt (Nat.sub_le _ _) t.isLt)).2 (ix2 r l)
      = runSum (fun n => blockSum (tArr m c) (cArr m c) n r.val l.val) (t.val - 1)) :
    (outsAt0 m c t.val t.isLt).2 (ix2 r l) = runSum (fun n => blockSum (tArr m c) (cArr m c) n r.val l.val) t.val := by
  have hN : t.val < 16 := lt_of_lt_of_eq t.isLt (show cfg0.N = 16 from N_0)
  by_cases h0 : t.val % 8 = 0
  · have h1 : t.val < 12 := by omega
    have h2 : ¬ 12 ≤ t.val := by omega
    have h3 : ¬ t.val % 8 = 7 := by omega
    rw [outsAt0_A m c t h0 h1 h2 h3]
    dsimp only
    refine (congrFun (Stores.acc_first (F := Ideal) c (grid0.coords t) (ms0_0 t) (hs0_0 t) (ms0_1 t) (hs0_1 t) (ms0_2 t) (hs0_2 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t)) (ix2 r l)).trans ?_
    refine (sqdiff_fold_apply (iblk m c 0 t) (iblk m c 1 t) (k0_pay1 (F := Ideal)) r l).trans ?_
    rw [reset_apply, zero_add, sqdiff_block m c t h1 r l, runSum_first _ _ h0]
  · rw [runSum_step _ _ h0, ← ih h0]
    by_cases h1 : t.val < 12
    · have h2 : ¬ 12 ≤ t.val := by omega
      by_cases h3 : t.val % 8 = 7
      · rw [outsAt0_C m c t h0 h1 h2 h3]
        dsimp only
        refine (congrFun (Stores.acc_inside_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) ((hcond0_3 t).mpr h3) (iblk m c 0 t) (iblk m c 1 t) (outsAt0 m c (t.val - 1) (Nat.lt_of_le_of_lt (Nat.sub_le _ _) t.isLt)).2) (ix2 r l)).trans ?_
        refine (sqdiff_fold_apply (iblk m c 0 t) (iblk m c 1 t) (outsAt0 m c (t.val - 1) (Nat.lt_of_le_of_lt (Nat.sub_le _ _) t.isLt)).2 r l).trans ?_
        rw [sqdiff_block m c t h1 r l]
      · rw [outsAt0_B m c t h0 h1 h2 h3]
        dsimp only
        refine (congrFun (Stores.acc_inside (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2) (ix2 r l)).trans ?_
        refine (sqdiff_fold_apply (iblk m c 0 t) (iblk m c 1 t) (outsAt0 m c (t.val - 1) (Nat.lt_of_le_of_lt (Nat.sub_le _ _) t.isLt)).2 r l).trans ?_
        rw [sqdiff_block m c t h1 r l]
    · have h2 : 12 ≤ t.val := by omega
      by_cases h3 : t.val % 8 = 7
      · rw [outsAt0_E m c t h0 h1 h2 h3]
        dsimp only
        refine (congrFun (Stores.acc_beyond_last (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2) (ix2 r l)).trans ?_
        refine (sq_fold_apply (iblk m c 0 t) (outsAt0 m c (t.val - 1) (Nat.lt_of_le_of_lt (Nat.sub_le _ _) t.isLt)).2 r l).trans ?_
        rw [sq_block m c t h2 r l]
      · rw [outsAt0_D m c t h0 h1 h2 h3]
        dsimp only
        refine (congrFun (Stores.acc_beyond (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2) (ix2 r l)).trans ?_
        refine (sq_fold_apply (iblk m c 0 t) (outsAt0 m c (t.val - 1) (Nat.lt_of_le_of_lt (Nat.sub_le _ _) t.isLt)).2 r l).trans ?_
        rw [sq_block m c t h2 r l]

/-- After every point the running block holds the running sum of its run's folded blocks. -/
theorem acc_eq (c : Dev nD) (r : Fin 8) (l : Fin 128) : ∀ (n : ℕ) (h : n < cfg0.N),
    (outsAt0 m c n h).2 (ix2 r l) = runSum (fun n => blockSum (tArr m c) (cArr m c) n r.val l.val) n
  | 0, h => acc_step m c ⟨0, h⟩ r l (fun h0 => absurd (Nat.zero_mod 8) h0)
  | n + 1, h => acc_step m c ⟨n + 1, h⟩ r l (fun _ => acc_eq c r l n (Nat.lt_of_succ_lt h))

/-- At the last point of a run the output block holds the running block's entries. -/
theorem out_eq_acc (c : Dev nD) (t : Fin cfg0.N) (h7 : t.val % 8 = 7) (u : Fin 1) (r : Fin 8) (l : Fin 128) :
    (outsAt0 m c t.val t.isLt).1 (ix3 u r l) = (outsAt0 m c t.val t.isLt).2 (ix2 r l) := by
  have hN : t.val < 16 := lt_of_lt_of_eq t.isLt (show cfg0.N = 16 from N_0)
  have h0 : ¬ t.val % 8 = 0 := by omega
  by_cases h1 : t.val < 12
  · have h2 : ¬ 12 ≤ t.val := by omega
    rw [outsAt0_C m c t h0 h1 h2 h7]
    dsimp only
    refine (congrFun (Stores.out_inside_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) ((hcond0_3 t).mpr h7) (iblk m c 0 t) (iblk m c 1 t) (outsAt0 m c (t.val - 1) (Nat.lt_of_le_of_lt (Nat.sub_le _ _) t.isLt)).2) (ix3 u r l)).trans ?_
    refine (out_apply _ u r l).trans ?_
    exact (congrFun (Stores.acc_inside_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) ((hcond0_3 t).mpr h7) (iblk m c 0 t) (iblk m c 1 t) (outsAt0 m c (t.val - 1) (Nat.lt_of_le_of_lt (Nat.sub_le _ _) t.isLt)).2) (ix2 r l)).symm
  · have h2 : 12 ≤ t.val := by omega
    rw [outsAt0_E m c t h0 h1 h2 h7]
    dsimp only
    refine (congrFun (Stores.out_beyond_last (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h2) ((hcond0_3 t).mpr h7) (iblk m c 0 t) (iblk m c 1 t) (outsAt0 m c (t.val - 1) (Nat.lt_of_le_of_lt (Nat.sub_le _ _) t.isLt)).2) (ix3 u r l)).trans ?_
    refine (out_apply _ u r l).trans ?_
    exact (congrFun (Stores.acc_beyond_last (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) ((hcond0_2 t).mpr h2) ((hcond0_3 t).mpr h7) (iblk m c 0 t) (iblk m c 1 t) (outsAt0 m c (t.val - 1) (Nat.lt_of_le_of_lt (Nat.sub_le _ _) t.isLt)).2) (ix2 r l)).symm

end Cert.KernelIdeal.Acc

end
-- ==== Proof.DistanceResult.lean ====
/-
  The common result: the square root, on the extended reals, of zero plus the squared distance (the leading zero
  is the sum's initial value, which both programs spell with the same word).
-/
import Idealize.ShloMosaic.PureOps.Ideal
import proofs.«162700_j75668733821525_2_alg».proof.Proof.SquaredDistance

noncomputable section

namespace Cert.Distance

open Idealize.ShloMosaic

/-- The result array (it has no axis, so one entry) for a squared distance d. -/
def result (d : EReal) : FVec Ideal (⟨0, ![]⟩ : Shape) .f32 :=
  Host.sqrt (F := Ideal) (fun _ => Ideal.ofBits .f32 0x00000000#32 + d)

end Cert.Distance

end
-- ==== Proof.LibIdxSums.lean ====
/-
  GENERAL lemmas: a sum over the index set of a rank-1 array is the sum over its one coordinate, and a sum over
  the index set of a rank-3 array is the triple sum over its coordinates (any additive commutative monoid).
-/
import Idealize.ShloMosaic.Lib.ValueIdx

noncomputable section

open scoped BigOperators

namespace Cert.LibIdxSums

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdxSums

end
-- ==== Proof.KernelTotal.lean ====
/-
  The kernel's result is the common result.

  The output array has one [8, 128] slab per half p; the last point of run p (point 8 p + 7) writes its running
  block there, and no other point writes back. So after the region the array holds at (p, r, l) the sum of the eight
  folded blocks of half p at (r, l). The host then sums the 2 · 8 · 128 entries from the initial value zero — the
  squared distance, by the regrouping law — and takes the square root.
-/
import proofs.«162700_j75668733821525_2_alg».proof.Proof.Accumulation
import proofs.«162700_j75668733821525_2_alg».proof.Proof.DistanceResult
import proofs.«162700_j75668733821525_2_alg».proof.Proof.LibIdxSums
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Distance Cert.KernelIdeal.Acc Cert.LibIdxSums

variable (m : (ℓ : Loc nD τ sig) → Buf (Elt Ideal) ℓ) (ρ : Dev nD → PrngReg)

/-- The partial sums the region leaves: at (p, r, l) the eight folded blocks of half p at (r, l), added up. -/
def partials (c : Dev nD) : FVec Ideal S2x8x128 .f32 := fun j =>
  runSum (fun n => blockSum (tArr m c) (cArr m c) n (j 1).val (j 2).val) (8 * (j 0).val + 7)

/-- The output's block at point n is slab n / 8. -/
theorem index2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- What a point that writes back writes is its slab of the partial sums. -/
theorem flushed_eq (c : Dev nD) (t : Fin cfg0.N) (hf : (cfg0.win 2).flush t = true) :
    (dats m 0 c).flushed 2 t = ((cfg0.win 2).blk t).view.read (Elt Ideal) (partials m c) := by
  have hN : t.val < 16 := lt_of_lt_of_eq t.isLt (show cfg0.N = 16 from N_0)
  have h7 : t.val % 8 = 7 := (flush0_2 t).mp hf
  show (cfg0.win 2).cut (grid0.coords t) ((dats m 0 c).after 2 t) = _
  rw [after0_2]
  funext j
  obtain ⟨u, r, l, rfl⟩ : ∃ (u : Fin 1) (r : Fin 8) (l : Fin 128), j = ix3 u r l := ⟨j 0, j 1, j 2, eq_ix3 j⟩
  show (outsAt0 m c t.val t.isLt).1 (ix3 u r l) = partials m c (((cfg0.win 2).blk t).view.emb (ix3 u r l))
  rw [out_eq_acc m c t h7 u r l, acc_eq m c r l t.val t.isLt]
  have e0 : ((((cfg0.win 2).blk t).view.emb (ix3 u r l)) 0).val = t.val / 8 := by
    show win0_2.index t 0 * 1 + 1 * u.val = _
    rw [(index2 t).1]; have := u.isLt; omega
  have e1 : ((((cfg0.win 2).blk t).view.emb (ix3 u r l)) 1).val = r.val := by
    show win0_2.index t 1 * 8 + 1 * r.val = _
    rw [(index2 t).2.1]; omega
  have e2 : ((((cfg0.win 2).blk t).view.emb (ix3 u r l)) 2).val = l.val := by
    show win0_2.index t 2 * 128 + 1 * l.val = _
    rw [(index2 t).2.2]; omega
  unfold partials
  rw [e0, e1, e2]
  congr 1
  omega

/-- Every entry of the output array is in the slab some writing point writes. -/
theorem cover (i : S2x8x128.Idx) :
    ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  have hN : cfg0.N = 16 := N_0
  let t : Fin cfg0.N := ⟨8 * (i 0).val + 7, by omega⟩
  have ht : t.val = 8 * (i 0).val + 7 := rfl
  refine ⟨t, (flush0_2 t).mpr (by omega), ?_⟩
  show i ∈ ((View.whole main_v2).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [(index2 t).1]; omega
  | ⟨1, _⟩ =>
    show win0_2.index t 1 * 8 ≤ (i 1).val ∧ (i 1).val < win0_2.index t 1 * 8 + 8
    rw [(index2 t).2.1]; omega
  | ⟨2, _⟩ =>
    show win0_2.index t 2 * 128 ≤ (i 2).val ∧ (i 2).val < win0_2.index t 2 * 128 + 128
    rw [(index2 t).2.2]; omega

/-- So after the region the output array holds the partial sums. -/
theorem final (c : Dev nD) : (dats m 0 c).arrAt 2 cfg0.N = partials m c :=
  (dats m 0 c).arrAt_eq_of_cover 2 (partials m c) (flushed_eq m c) cover

/-- The host's lines after the region: the result buffer ends at the square root of the partial sums' sum. -/
theorem tail_eq (c : Dev nD) :
    Pipeline.afterTail₀ cfgs (dats m) 0 (V0 m) [hostOps1] c main_v4
      = Host.sqrt (F := Ideal) (Host.reduceAdd (F := Ideal) (partials m c) (constant (F := Ideal) S_ .f32 0x00000000#32) reducesTo_S2x8x128_S_d0_1_2 h_S_) := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v2) = partials m c :=
    (Pipeline.withArrays_arr spec0 launch0.win.arr_inj c _ _ 2).trans (final m c)
  rw [e]

/-- The partial sums add up to the squared distance (the regrouping law). -/
theorem sum_partials (c : Dev nD) : ∑ j : S2x8x128.Idx, partials m c j = total (tArr m c) (cArr m c) := by
  rw [sum_idx3, ← total_eq (tArr m c) (cArr m c)]
  rw [Finset.sum_range]
  refine Finset.sum_congr rfl fun p _ => ?_
  rw [Finset.sum_range]
  refine Finset.sum_congr rfl fun r _ => ?_
  rw [Finset.sum_range]
  refine Finset.sum_congr rfl fun l _ => ?_
  rfl

/-- So the host's sum and square root give the common result. -/
theorem result_eq (c : Dev nD) :
    Host.sqrt (F := Ideal) (Host.reduceAdd (F := Ideal) (partials m c) (constant (F := Ideal) S_ .f32 0x00000000#32) reducesTo_S2x8x128_S_d0_1_2 h_S_)
      = result (total (tArr m c) (cArr m c)) := by
  unfold result
  refine congrArg (Host.sqrt (F := Ideal)) (funext fun i => ?_)
  simp only [Host.reduceAdd, Ideal.hostReduceAdd_def]
  refine (Ideal.hostReduceAdd_total reducesTo_S2x8x128_S_d0_1_2 (fun b => b.elim0) (partials m c) _ i).trans ?_
  rw [sum_partials]
  rfl

/-- The run, read: the result buffer ends at the common result of the argument vectors, the arguments unchanged. -/
theorem run : θ_run defs (onTc (τ := τ) (main (F := Ideal))) ⟨m, fun _ => 0, ρ⟩ fun r => ∀ c : Dev nD,
      r.2.mem ((c.tc : Thread nD τ).loc main_v4) = result (total (tArr m c) (cArr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.ReferenceTotal.lean ====
/-
  The reference computes the common result.

  It continues c by the padding value to t's length (and "continues" t by nothing), subtracts, squares, sums over all
  33554432 positions from the initial value zero, and takes the square root. The padding value is the integer zero
  converted to a float, which on the extended reals is the real number zero; so the padded c at position j is c's
  entry while j is below c's length and zero from there on, and the sum is the squared distance's.
-/
import proofs.«162700_j75668733821525_2_alg».proof.Proof.Gen.ReferenceIdeal.Read
import proofs.«162700_j75668733821525_2_alg».proof.Proof.DistanceResult
import proofs.«162700_j75668733821525_2_alg».proof.Proof.LibIdxSums
import Idealize.ShloMosaic.Lib.KernelVsHost
import Idealize.ShloMosaic.PureOps.Ideal.Laws

noncomputable section

open Idealize.ShloMosaic Idealize.ShloMosaic.ValueIdx

namespace Cert.ReferenceIdeal.Total

open Cert.ReferenceIdeal Cert.ReferenceIdeal.Gen Cert.ReferenceIdeal.Read Cert.Distance Cert.LibIdxSums

variable (x0 : (⟨S33554432, .f32⟩ : BufTy).Contents (Elt Ideal)) (x1 : (⟨S25165824, .f32⟩ : BufTy).Contents (Elt Ideal))

/-- The first argument's entries by position. -/
def tArr : Fin 33554432 → EReal := fun a => x0 (ix1 a)

/-- The second argument's entries by position. -/
def cArr : Fin 25165824 → EReal := fun a => x1 (ix1 a)

/-- The padding value — the integer zero converted — is zero. -/
theorem pad_value : val_main_call1_v0 (F := Ideal) (Shape.Idx.first h_S_) = 0 := by
  rw [val_main_call1_v0_apply, val_main_c_0_apply]
  show (((0#32 : BitVec 32).toInt : ℝ) : EReal) = 0
  simp

/-- t padded by nothing is t. -/
theorem v0_apply (a : Fin 33554432) : val_main_v0 (F := Ideal) x0 (ix1 a) = ext0 (tArr x0) a.val := by
  rw [ext0_of_lt _ _ a.isLt]
  unfold val_main_v0
  exact pad_apply_of_inside _ _ _ x0 _ pads_S33554432_S33554432_000 h_S_ (ix1 a) (ix1 a)
    (fun b => match b with | ⟨0, _⟩ => by show a.val = 0 + a.val * (0 + 1); omega)

/-- c padded to t's length is c continued by zeros. -/
theorem v1_apply (a : Fin 33554432) : val_main_v1 (F := Ideal) x1 (ix1 a) = ext0 (cArr x1) a.val := by
  unfold val_main_v1
  by_cases h : a.val < 25165824
  · rw [ext0_of_lt _ _ h]
    exact pad_apply_of_inside _ _ _ x1 _ pads_S25165824_S33554432_083886080 h_S_ (ix1 a) (ix1 ⟨a.val, h⟩)
      (fun b => match b with | ⟨0, _⟩ => by show a.val = 0 + a.val * (0 + 1); omega)
  · rw [ext0_of_le _ _ (Nat.le_of_not_lt h)]
    refine (pad_apply_of_not_inside _ _ _ x1 _ pads_S25165824_S33554432_083886080 h_S_ (ix1 a) ⟨0, by decide⟩ ?_).trans pad_value
    rintro ⟨-, -, h3⟩
    apply h
    have h3' : (a.val - 0) / (0 + 1) < 25165824 := h3
    omega

/-- The sum over all positions of the squared differences is the squared distance. -/
theorem sum_terms : ∑ j : S33554432.Idx, val_main_v3 (F := Ideal) x0 x1 j = total (tArr x0) (cArr x1) := by
  unfold total
  rw [sum_idx1, Finset.sum_range]
  refine Finset.sum_congr rfl fun a _ => ?_
  rw [val_main_v3_apply, val_main_v2_apply, v0_apply, v1_apply]
  rfl

/-- The reference's result is the common result. -/
theorem result_eq : val_main_v5 (F := Ideal) x0 x1 = result (total (tArr x0) (cArr x1)) := by
  unfold val_main_v5 result
  refine congrArg (Host.sqrt (F := Ideal)) (funext fun i => ?_)
  rw [val_main_v4_apply, sum_terms]
  rfl

end Cert.ReferenceIdeal.Total

end
-- ==== Proof.lean ====
/-
  The kernel and the reference compute the same number on the extended reals: the square root of the sum over all
  33554432 positions j of (t j − c j)², where c, which has 25165824 entries, is continued by zeros.

  The reference pads c with zeros, subtracts, squares, sums everything from zero and takes the root
  (Proof/ReferenceTotal.lean). The kernel walks t in 16 blocks of 16384 × 128 entries, 8 blocks per core; at each
  block it folds the squared differences (beyond c's extent: the squares of t's entries, which is the same term since
  subtracting zero changes nothing) into an 8 × 128 running block by summing the block's 2048 groups of 8 rows, adds
  that to the running block — reset at the first block of each core's run — and at the last block of a run writes
  the running block to the core's slab of a 2 × 8 × 128 array (Proof/CaseValues.lean, Proof/BlockFold.lean,
  Proof/Accumulation.lean). The host sums the slabs from zero and takes the root (Proof/KernelTotal.lean). Writing a
  position as ((n · 2048 + k) · 8 + r) · 128 + l, the two sums run over the same terms in two orders, and they are
  equal by commutativity and associativity of addition alone (Proof/SquaredDistance.lean), so no finiteness of the
  inputs is used. The three frames are the generated ones (the reference's is its generated run with the result
  dropped), and the idealization rewrote nothing.
-/
import proofs.«162700_j75668733821525_2_alg».proof.Defs
import proofs.«162700_j75668733821525_2_alg».proof.Proof.Gen.Kernel
import proofs.«162700_j75668733821525_2_alg».proof.Proof.Gen.Kernel.Skeleton
import proofs.«162700_j75668733821525_2_alg».proof.Proof.Gen.Kernel.Launch
import proofs.«162700_j75668733821525_2_alg».proof.Proof.Gen.Kernel.Points
import proofs.«162700_j75668733821525_2_alg».proof.Proof.Gen.Kernel.Frame
import proofs.«162700_j75668733821525_2_alg».proof.Proof.Gen.KernelIdeal
import proofs.«162700_j75668733821525_2_alg».proof.Proof.Gen.KernelIdeal.Skeleton
import proofs.«162700_j75668733821525_2_alg».proof.Proof.Gen.KernelIdeal.Launch
import proofs.«162700_j75668733821525_2_alg».proof.Proof.Gen.KernelIdeal.Points
import proofs.«162700_j75668733821525_2_alg».proof.Proof.Gen.KernelIdeal.Frame
import proofs.«162700_j75668733821525_2_alg».proof.Proof.Gen.ReferenceIdeal
import proofs.«162700_j75668733821525_2_alg».proof.Proof.Gen.Pre_finite_inputs
import proofs.«162700_j75668733821525_2_alg».proof.Proof.Gen.ReferenceIdeal.Run
import proofs.«162700_j75668733821525_2_alg».proof.Proof.Gen.ReferenceIdeal.Read
import proofs.«162700_j75668733821525_2_alg».proof.Proof.KernelTotal
import proofs.«162700_j75668733821525_2_alg».proof.Proof.ReferenceTotal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the common result of the argument vectors, which agree. -/
theorem algebraic : Cert.algebraic_KernelIdeal_ReferenceIdeal := by
  intro m ρ m' ρ' _ hagree
  refine ⟨fun c => Cert.Distance.result (Cert.Distance.total (Cert.KernelIdeal.Acc.tArr m c) (Cert.KernelIdeal.Acc.cArr m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.ReferenceIdeal.Total.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
